-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S64x64 : Shape := ⟨2, ![64, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8192x4096 .f32) (main_arg1 : FVec F S4096x4096 .f32) (main_arg2 : FVec F S64x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S64x64 : Shape := ⟨2, ![64, 64]⟩
abbrev S512x4096 : Shape := ⟨2, ![512, 4096]⟩
abbrev S8x64 : Shape := ⟨2, ![8, 64]⟩
abbrev S8x1x64x1 : Shape := ⟨4, ![8, 1, 64, 1]⟩
abbrev S8x64x64x64 : Shape := ⟨4, ![8, 64, 64, 64]⟩
abbrev S4096x1024 : Shape := ⟨2, ![4096, 1024]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S64x64, .f32⟩
  | .hbm, ⟨3, _⟩ => ⟨S4096x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S8x64, .f32⟩
  | .local _ .vmem, ⟨3, _⟩ => ⟨S8x64, .f32⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | .local _ .vmem, ⟨7, _⟩ => ⟨S512x4096, .f32⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x64_S8x64_0_0 : ∀ a, (![0, 0] : Fin 2 → Nat) a + S8x64.size a ≤ S8x64.size a
  h_S8x64 : 0 < S8x64.numel
  shapeCasts_S8x64_S8x1x64x1 : S8x64.ShapeCasts S8x1x64x1
  shapeCasts_S8x1x64x1_S8x1x64x1 : S8x1x64x1.ShapeCasts S8x1x64x1
  broadcasts_S8x1x64x1_S8x64x64x64 : S8x1x64x1.Broadcasts S8x64x64x64
  shapeCasts_S8x64x64x64_S512x4096 : S8x64x64x64.ShapeCasts S512x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S64x64.size a
  hwx0_1 : ∀ i : grid0.Coords, EltTy.bits .f32 = 32 ∨ (Rect.block (s := S64x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .f32 = 32 ∨ (Rect.block (s := S8192x4096) S512x1024.size (cc1_transform_2 i) (hinb1_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S64x64 : Shape := ⟨2, ![64, 64]⟩
abbrev S_ : Shape := ⟨0, ![]⟩
abbrev S64x1x64x1 : Shape := ⟨4, ![64, 1, 64, 1]⟩
abbrev S64x64x64x64 : Shape := ⟨4, ![64, 64, 64, 64]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S64x64, .f32⟩
  | .hbm, ⟨3, _⟩ => ⟨S_, .f32⟩
  | .hbm, ⟨4, _⟩ => ⟨S64x64, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S64x1x64x1, .f32⟩
  | .hbm, ⟨10, _⟩ => ⟨S64x64x64x64, .f32⟩
  | .hbm, ⟨11, _⟩ => ⟨S4096x4096, .f32⟩
  | .hbm, ⟨12, _⟩ => ⟨S4096x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S64x1x64x1_S64x64x64x64_0_1_2_3 : S64x1x64x1.BroadcastsInDim S64x64x64x64 (![0, 1, 2, 3] : Fin 4 → Fin S64x64x64x64.rank)
  shapeCasts_S64x64x64x64_S4096x4096 : S64x64x64x64.ShapeCasts S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Target.lean ====
/-
  The function both programs compute, index by index on the extended reals.

  A weight matrix of 4096 x 4096 entries is cut into 64 x 64 square blocks. Entry (k, j) lies in block (k / 64, j / 64),
  and its value is the sign entry at (k, j) times the magnitude of that block's scale: the scale clipped below at the
  zero literal, plus a small positive literal (`mag`). The result at (r, j) is the sum over the 4096 inner coordinates k
  of x (r, k) times the weight at (k, j) (`product`). No law of the extended reals is needed to join the two programs:
  both form exactly these products and sum them over the same index set.
-/
import Idealize.ShloMosaic.PureOps.Ideal
import Idealize.ShloMosaic.Lib.ValueIdx

noncomputable section

open scoped BigOperators

namespace Cert.BlockScaled

open Idealize.ShloMosaic Idealize.ShloMosaic.ValueIdx

/-- The magnitude of a block scale: the scale clipped below at the zero literal, plus the small literal. -/
def mag (s : EReal) : EReal :=
  max s (FloatOps.ofBits (F := Ideal) .f32 0x00000000#32) + FloatOps.ofBits (F := Ideal) .f32 0x358637BD#32

/-- The 64-wide block an inner or outer coordinate of the weight lies in. -/
def blk (k : Fin 4096) : Fin 64 := ⟨k.val / 64, by have := k.isLt; omega⟩

/-- The weight: the sign entry times the magnitude of the scale of the entry's block. -/
def weight (sign : (⟨2, ![4096, 4096]⟩ : Shape).Idx → EReal) (scales : (⟨2, ![64, 64]⟩ : Shape).Idx → EReal) :
    (⟨2, ![4096, 4096]⟩ : Shape).Idx → EReal :=
  fun i => sign i * mag (scales (ix2 (blk ⟨(i 0).val, idx2_lt0 i⟩) (blk ⟨(i 1).val, idx2_lt1 i⟩)))

/-- The weight at explicit coordinates. -/
theorem weight_ix2 (sign : (⟨2, ![4096, 4096]⟩ : Shape).Idx → EReal) (scales : (⟨2, ![64, 64]⟩ : Shape).Idx → EReal)
    (k j : Fin 4096) : weight sign scales (ix2 k j) = sign (ix2 k j) * mag (scales (ix2 (blk k) (blk j))) := rfl

/-- The matrix product of the activations with a weight, as the plain sum over the inner coordinate. -/
def product (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ix2 ⟨(i 0).val, idx2_lt0 i⟩ k) * w (ix2 k ⟨(i 1).val, idx2_lt1 i⟩)

/-- The product at explicit coordinates. -/
theorem product_ix2 (x : (⟨2, ![8192, 4096]⟩ : Shape).Idx → EReal) (w : (⟨2, ![4096, 4096]⟩ : Shape).Idx → EReal)
    (r : Fin 8192) (j : Fin 4096) : product x w (ix2 r j) = ∑ k : Fin 4096, x (ix2 r k) * w (ix2 k j) := rfl

end Cert.BlockScaled

end
-- ==== Proof.RefIsTarget.lean ====
/-
  The reference program's result is the target function of its three arguments.

  The reference clips the 64 x 64 scales at zero, adds the small literal, repeats every entry over a 64 x 64 square by
  two broadcasts and a reshape of [64, 64, 64, 64] to [4096, 4096], multiplies by the signs and contracts the activations
  with that product. Reading the reshape at (k, j): the row-major position k * 4096 + j has first coordinate k / 64 and third
  coordinate j / 64 in the four-axis shape, which are the block of k and the block of j.
-/
import proofs.«132173_j91113436217701_1_alg».proof.Proof.Gen.ReferenceIdeal.Read
import proofs.«132173_j91113436217701_1_alg».proof.Proof.Target

noncomputable section

open scoped BigOperators

namespace Cert.BlockScaled

open Idealize.ShloMosaic Idealize.ShloMosaic.ValueIdx Cert.ReferenceIdeal Cert.ReferenceIdeal.Read

/-- Through the reshape and the two broadcasts, entry (k, j) of the expanded magnitudes reads the scale of the block
    of k and the block of j. -/
theorem ref_block_idx (j : S4096x4096.Idx) :
    idx_main_v3 (idx_main_v4 (idx_main_v5 j)) = ix2 (blk ⟨(j 0).val, idx2_lt0 j⟩) (blk ⟨(j 1).val, idx2_lt1 j⟩) := by
  have h0 := idx2_lt0 j
  have h1 := idx2_lt1 j
  funext a
  apply Fin.ext
  match a with
  | ⟨0, _⟩ => show ((j 0).val * 4096 + (j 1).val) / 262144 = (j 0).val / 64; omega
  | ⟨1, _⟩ => show ((j 0).val * 4096 + (j 1).val) / 64 % 64 = (j 1).val / 64; omega

/-- The reference's weight stage is the target's weight. -/
theorem ref_weight (x1 : S4096x4096.Idx → EReal) (x2 : S64x64.Idx → EReal) (j : S4096x4096.Idx) :
    val_main_v6 (F := Ideal) x1 x2 j = weight x1 x2 j := by
  rw [val_main_v6_apply, val_main_v5_apply, val_main_v4_apply, val_main_v3_apply, val_main_v2_apply, val_main_v0_apply,
    val_main_call0_v0_apply, val_main_call0_cst_apply, val_main_v1_apply, val_main_cst_apply, ref_block_idx]
  rfl

/-- The reference's result stage is the target: the same products summed over the same inner coordinate. -/
theorem ref_is_target (x0 : S8192x4096.Idx → EReal) (x1 : S4096x4096.Idx → EReal) (x2 : S64x64.Idx → EReal) :
    val_main_v7 (F := Ideal) x0 x1 x2 = product x0 (weight x1 x2) := by
  funext i
  rw [val_main_v7_apply]
  unfold product
  refine Finset.sum_congr rfl fun k _ => ?_
  have el : lidx_main_v7 i k = ix2 ⟨(i 0).val, idx2_lt0 i⟩ k :=
    funext fun a => Fin.ext (by match a with | ⟨0, _⟩ => rfl | ⟨1, _⟩ => rfl)
  have er : ridx_main_v7 i k = ix2 k ⟨(i 1).val, idx2_lt1 i⟩ :=
    funext fun a => Fin.ext (by match a with | ⟨0, _⟩ => rfl | ⟨1, _⟩ => rfl)
  rw [el, er, ref_weight]

end Cert.BlockScaled

end
-- ==== Proof.KernelRun.lean ====
/-
  The kernel program's run with its result array named.

  The program is two launches in a row. Every weakly fair execution terminates without a fault; afterwards each buffer
  outside the launches' scratch holds the contents obtained by folding the launches' write-backs over the launch memory.
  Read at the result buffer this names the result: the array the second launch leaves, computed from arrays the first
  launch leaves. The three argument arrays end as launched.
-/
import proofs.«132173_j91113436217701_1_alg».proof.Proof.Gen.KernelIdeal.Frame

set_option maxRecDepth 16384

noncomputable section

namespace Cert.BlockScaled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches terminates, nothing faulting; the result buffer then holds the
    folded contents at the result's reference, and the arguments are as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The result's folded contents are what the second launch leaves in its output array. -/
theorem result_is_second (c : Dev nD) :
    W2 m ρ c (Proc.devRef .tc main_v1) = (dat1 (V1 m ρ) c).arrAt 2 cfg1.N := W2_arr m ρ c 2

/-- The second launch finds the activations as launched (the first launch does not touch them) … -/
theorem second_finds_x (c : Dev nD) : V1 m ρ c main_arg0 = m ((c : Thread nD τ).loc main_arg0) :=
  W1_of_ne m ρ c main_arg0 (by decide)

/-- … and the weights as the first launch leaves them. -/
theorem second_finds_w (c : Dev nD) : V1 m ρ c main_v0 = (dat0 (V0 m ρ) c).arrAt 2 cfg0.N := W1_arr m ρ c 2

end Cert.BlockScaled

end
-- ==== Proof.DequantBody.lean ====
/-
  What the first kernel's body stores, read at one entry of its 512 x 4096 block.

  The body loads an 8 x 64 tile of scales and a 512 x 4096 tile of signs. It clips the scales at the zero literal and adds
  the small literal, views the 8 x 64 result as [8, 1, 64, 1], repeats it to [8, 64, 64, 64] and flattens that to
  [512, 4096]; the product with the signs is stored (the change of float format is the identity on extended reals).
  Entry (p, q) of the flattened array sits at row-major position p * 4096 + q, whose coordinates in [8, 64, 64, 64] are
  (p / 64, p % 64, q / 64, q % 64): so it reads the tile's magnitude at (p / 64, q / 64).
-/
import proofs.«132173_j91113436217701_1_alg».proof.Proof.Gen.KernelIdeal.Skeleton
import proofs.«132173_j91113436217701_1_alg».proof.Proof.Target
import Idealize.ShloMosaic.Lib.Pipeline.Value
import Idealize.ShloMosaic.Lib.ValueIdx

noncomputable section

namespace Cert.BlockScaled

open Idealize.ShloMosaic Idealize.ShloMosaic.ValueIdx Cert.KernelIdeal Cert.KernelIdeal.Gen

/-- The row block, among the tile's 8, of a row of the 512-row tile. -/
def rowBlk (p : Fin 512) : Fin 8 := ⟨p.val / 64, by have := p.isLt; omega⟩

/-- Repeating each entry of an 8 x 64 tile over a 64 x 64 square: entry (p, q) of the 512 x 4096 result is the tile's
    entry at (p / 64, q / 64). -/
theorem expand_apply {α : Type} (v : S8x64.Idx → α) (p : Fin 512) (q : Fin 4096) :
    shapeCast S512x4096 (broadcastTo S8x64x64x64 (shapeCast S8x1x64x1 (shapeCast S8x1x64x1 v shapeCasts_S8x64_S8x1x64x1)
        shapeCasts_S8x1x64x1_S8x1x64x1) broadcasts_S8x1x64x1_S8x64x64x64) shapeCasts_S8x64x64x64_S512x4096 (ix2 p q)
      = v (ix2 (rowBlk p) (blk q)) := by
  have hp := p.isLt
  have hq := q.isLt
  refine (shapeCast_apply _ shapeCasts_S8x64x64x64_S512x4096 (ix2 p q)
    (ix4 (rowBlk p) (⟨p.val % 64, by omega⟩ : Fin 64) (blk q) (⟨q.val % 64, by omega⟩ : Fin 64)) ?_).trans ?_
  · rw [Shape.rowMajor_val_four, Shape.rowMajor_val_two]
    show ((p.val / 64 * 64 + p.val % 64) * 64 + q.val / 64) * 64 + q.val % 64 = p.val * 4096 + q.val
    omega
  refine (broadcastTo_apply _ broadcasts_S8x1x64x1_S8x64x64x64 _
    (ix4 (rowBlk p) (0 : Fin 1) (blk q) (0 : Fin 1)) ?_).trans ?_
  · intro a
    match a with
    | ⟨0, _⟩ => show p.val / 64 = if (8 : Nat) = 1 then 0 else p.val / 64; rw [if_neg (by decide)]
    | ⟨1, _⟩ => show 0 = if (1 : Nat) = 1 then 0 else p.val % 64; rw [if_pos rfl]
    | ⟨2, _⟩ => show q.val / 64 = if (64 : Nat) = 1 then 0 else q.val / 64; rw [if_neg (by decide)]
    | ⟨3, _⟩ => show 0 = if (1 : Nat) = 1 then 0 else q.val % 64; rw [if_pos rfl]
  refine (congrFun (shapeCast_self _ shapeCasts_S8x1x64x1_S8x1x64x1) _).trans ?_
  refine shapeCast_apply _ shapeCasts_S8x64_S8x1x64x1 _ (ix2 (rowBlk p) (blk q)) ?_
  rw [Shape.rowMajor_val_four, Shape.rowMajor_val_two]
  show p.val / 64 * 64 + q.val / 64 = ((p.val / 64 * 1 + 0) * 64 + q.val / 64) * 1 + 0
  omega

/-- The stored value at (p, q): the sign there times the magnitude of the tile's scale at (p / 64, q / 64). -/
theorem dequant_apply (scales : Vec Ideal S8x64 .f32) (sign : Vec Ideal S512x4096 .f32) (p : Fin 512) (q : Fin 4096) :
    k0_pay1 scales sign (ix2 p q) = sign (ix2 p q) * mag (scales (ix2 (rowBlk p) (blk q))) := by
  unfold k0_pay1
  refine congrArg (sign (ix2 p q) * ·) ?_
  exact expand_apply _ p q

end Cert.BlockScaled

end
-- ==== Proof.WeightArray.lean ====
/-
  The array the first launch leaves: the target's weight of the signs and scales the launch finds.

  The launch has 8 grid points. Point t stages rows 512 t to 512 t + 511 of the signs (all 4096 columns), rows 8 t to
  8 t + 7 of the 64 x 64 scales, and writes back the same rows of the output. Row 512 t + p of the array lies in the
  block of rows 8 t + p / 64, so what the body stores at (p, q) — the sign there times the magnitude of the staged scale at
  (p / 64, q / 64) — is the weight at (512 t + p, q). The 8 row bands tile the array, so the array ends equal to the weight.
-/
import proofs.«132173_j91113436217701_1_alg».proof.Proof.Gen.KernelIdeal.Frame
import proofs.«132173_j91113436217701_1_alg».proof.Proof.DequantBody
import Idealize.ShloMosaic.Lib.Pipeline.Value

set_option maxRecDepth 16384

noncomputable section

namespace Cert.BlockScaled

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- One entry of one band. If row `i 0` of the array is row `y 0` of band `T`, the staged sign at `y` is the sign at `i`
    and the staged scales are rows 8 T … of the scales, then the stored value at `y` is the weight at `i`. -/
theorem band_entry (sign : S4096x4096.Idx → EReal) (scales : S64x64.Idx → EReal)
    (sb : Vec Ideal S512x4096 .f32) (tb : Vec Ideal S8x64 .f32) (i : S4096x4096.Idx) (y : S512x4096.Idx) (T : Nat)
    (hi0 : (i 0).val = T * 512 + (y 0).val) (hi1 : (i 1).val = (y 1).val) (hsb : sb y = sign i)
    (htb : ∀ (a : Fin 8) (b : Fin 64) (u : S64x64.Idx), (u 0).val = T * 8 + a.val → (u 1).val = b.val → tb (ix2 a b) = scales u) :
    k0_pay1 tb sb y = weight sign scales i := by
  obtain ⟨p, q, rfl⟩ : ∃ (p : Fin 512) (q : Fin 4096), y = ix2 p q := ⟨y 0, y 1, eq_ix2 y⟩
  have hi0' : (i 0).val = T * 512 + p.val := hi0
  have hi1' : (i 1).val = q.val := hi1
  have hp := p.isLt
  rw [dequant_apply, hsb]
  unfold weight
  refine congrArg (fun s => sign i * mag s) ?_
  refine htb (rowBlk p) (blk q) _ ?_ ?_
  · show (i 0).val / 64 = T * 8 + p.val / 64
    omega
  · show (i 1).val / 64 = q.val / 64
    omega

/-- The printed index maps over the 8 points: every window moves down one band per point and stays at column block 0. -/
theorem band_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is band `t` of the weight of the signs and scales the launch finds. -/
theorem band_flushed (c : Dev nD) (t : Fin cfg0.N) :
    (dat0 V c).flushed 2 t = ((cfg0.win 2).blk t).view.read (Elt Ideal) (weight (V c main_arg1) (V c main_arg2)) := by
  show (cfg0.win 2).cut (grid0.coords t) ((dat0 V c).after 2 t) = _
  rw [after0_2]
  unfold out0_2
  rw [View.canon_unit_zero zero_offsets]
  simp only [View.ld_unit_zero (S := S8x64) zero_offsets, View.ld_unit_zero (S := S512x4096) zero_offsets]
  obtain ⟨e0, e1, e2, e3, e4, e5⟩ := band_maps t
  funext j
  refine band_entry (V c main_arg1) (V c main_arg2) (iblk0 V c 0 t) (iblk0 V c 1 t) (((cfg0.win 2).blk t).view.emb j) j t.val ?_ ?_ ?_ ?_
  · show win0_2.index t (0 : Fin 2) * 512 + 1 * (j 0).val = t.val * 512 + (j 0).val
    rw [e4]; omega
  · show win0_2.index t (1 : Fin 2) * 4096 + 1 * (j 1).val = (j 1).val
    rw [e5]; omega
  · show V c main_arg1 (((cfg0.win 0).blk t).view.emb j) = V c main_arg1 (((cfg0.win 2).blk t).view.emb j)
    refine congrArg (V c main_arg1) (funext fun a => Fin.ext ?_)
    match a with
    | ⟨0, _⟩ => show win0_0.index t (0 : Fin 2) * 512 + 1 * (j 0).val = win0_2.index t (0 : Fin 2) * 512 + 1 * (j 0).val; rw [e0, e4]
    | ⟨1, _⟩ => show win0_0.index t (1 : Fin 2) * 4096 + 1 * (j 1).val = win0_2.index t (1 : Fin 2) * 4096 + 1 * (j 1).val; rw [e1, e5]
  · intro a b u hu0 hu1
    show V c main_arg2 (((cfg0.win 1).blk t).view.emb (ix2 a b)) = V c main_arg2 u
    refine congrArg (V c main_arg2) (funext fun d => Fin.ext ?_)
    match d with
    | ⟨0, _⟩ => show win0_1.index t (0 : Fin 2) * 8 + 1 * a.val = (u 0).val; rw [e2, hu0]; omega
    | ⟨1, _⟩ => show win0_1.index t (1 : Fin 2) * 64 + 1 * b.val = (u 1).val; rw [e3, hu1]; omega

/-- An index of the array is in point `t`'s band iff each coordinate is in the band's range on its axis. -/
theorem mem_band (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v0).slice (win0_2.rect t)).set ↔ _
  rw [View.set_slice_whole, Rect.mem_set_unit]
  exact Iff.rfl

/-- The 8 bands cover the array: row r is in band r / 512. -/
theorem bands_cover (i : S4096x4096.Idx) :
    ∃ t : Fin cfg0.N, (cfg0.win 2).flush t = true ∧ i ∈ ((cfg0.win 2).blk t).view.set := by
  have h0 := idx2_lt0 i
  have h1 := idx2_lt1 i
  have hN : grid0.N = 8 := N_0
  obtain ⟨t, ht⟩ : ∃ t : Fin cfg0.N, t.val = (i 0).val / 512 := ⟨⟨(i 0).val / 512, by show (i 0).val / 512 < grid0.N; rw [hN]; omega⟩, rfl⟩
  obtain ⟨e0, e1, e2, e3, e4, e5⟩ := band_maps t
  refine ⟨t, flush0_2 t, ?_⟩
  rw [mem_band]
  intro a
  match a with
  | ⟨0, _⟩ => show win0_2.index t (0 : Fin 2) * 512 ≤ (i 0).val ∧ (i 0).val < win0_2.index t (0 : Fin 2) * 512 + 512; rw [e4]; omega
  | ⟨1, _⟩ => show win0_2.index t (1 : Fin 2) * 4096 ≤ (i 1).val ∧ (i 1).val < win0_2.index t (1 : Fin 2) * 4096 + 4096; rw [e5]; omega

/-- The array the first launch leaves is the weight of the signs and scales it finds. -/
theorem weight_array (c : Dev nD) :
    (dat0 V c).arrAt 2 cfg0.N = weight (V c main_arg1) (V c main_arg2) :=
  (dat0 V c).arrAt_eq_of_cover 2 (weight (V c main_arg1) (V c main_arg2)) (fun t _ => band_flushed V c t) bands_cover

end Cert.BlockScaled

end
-- ==== Proof.MatmulBody.lean ====
/-
  What the second kernel's body stores, read at one entry of its 512 x 1024 block.

  The body loads a 512 x 4096 tile of activations and a 4096 x 1024 tile of weights and stores their matrix product
  accumulated into zeros (the change of float format of the activations is the identity on extended reals). Entry (p, q)
  is the sum over the 4096 inner coordinates k of the activation at (p, k) times the weight at (k, q).
-/
import proofs.«132173_j91113436217701_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.BlockScaled

open Idealize.ShloMosaic Idealize.ShloMosaic.ValueIdx Cert.KernelIdeal Cert.KernelIdeal.Gen

/-- The tile product's dimension numbers: rows of the left operand, columns of the right, one contracted axis. -/
abbrev tileDot : DotDims S512x4096 S4096x1024 S512x1024 := dot_S512x4096_S4096x1024_S512x1024_1_0_0_1_n_n

/-- The left operand is read at the output's row … -/
theorem tile_lhs_row (i : S512x1024.Idx) (c : tileDot.contr.Idx) : (tileDot.lhsIdx i c 0).val = (i 0).val := by
  unfold DotDims.lhsIdx
  rw [dif_neg (show ¬(0 : Fin S512x4096.rank) ∈ tileDot.lhsBatch by decide),
    dif_pos (show (0 : Fin S512x4096.rank) ∈ tileDot.lhsNonContracting by decide)]
  rfl
/-- … and the contracted coordinate; -/
theorem tile_lhs_inner (i : S512x1024.Idx) (c : tileDot.contr.Idx) : (tileDot.lhsIdx i c 1).val = (c ⟨0, by decide⟩).val :=
  tileDot.lhsIdx_val_of_single rfl i c
/-- the right operand at the contracted coordinate … -/
theorem tile_rhs_inner (i : S512x1024.Idx) (c : tileDot.contr.Idx) : (tileDot.rhsIdx i c 0).val = (c ⟨0, by decide⟩).val :=
  tileDot.rhsIdx_val_of_single rfl i c
/-- … and the output's column. -/
theorem tile_rhs_col (i : S512x1024.Idx) (c : tileDot.contr.Idx) : (tileDot.rhsIdx i c 1).val = (i 1).val := by
  unfold DotDims.rhsIdx
  rw [dif_neg (show ¬(1 : Fin S4096x1024.rank) ∈ tileDot.rhsBatch by decide),
    dif_pos (show (1 : Fin S4096x1024.rank) ∈ tileDot.rhsNonContracting by decide)]
  rfl

/-- The stored value at (p, q): the row p of the activations' tile against the column q of the weights' tile. -/
theorem matmul_apply (x : Vec Ideal S512x4096 .f32) (w : Vec Ideal S4096x1024 .bf16) (p : Fin 512) (q : Fin 1024) :
    k1_pay1 x w (ix2 p q) = ∑ k : Fin 4096, x (ix2 p k) * w (ix2 k q) := by
  unfold k1_pay1
  refine (Ideal.matmul_constant_zero_apply tileDot none _ _ (ix2 p q)).trans ?_
  rw [← Equiv.sum_comp (contrEquiv1 tileDot 4096 rfl rfl).symm]
  refine Finset.sum_congr rfl fun k _ => ?_
  have hk := contrEquiv1_symm_val tileDot 4096 rfl rfl k
  have el : tileDot.lhsIdx (ix2 p q) ((contrEquiv1 tileDot 4096 rfl rfl).symm k) = ix2 p k :=
    funext fun a => Fin.ext (by
      match a with
      | ⟨0, _⟩ => exact tile_lhs_row _ _
      | ⟨1, _⟩ => exact (tile_lhs_inner _ _).trans hk)
  have er : tileDot.rhsIdx (ix2 p q) ((contrEquiv1 tileDot 4096 rfl rfl).symm k) = ix2 k q :=
    funext fun a => Fin.ext (by
      match a with
      | ⟨0, _⟩ => exact (tile_rhs_inner _ _).trans hk
      | ⟨1, _⟩ => exact tile_rhs_col _ _)
  rw [el, er, shapeCast_self]
  rfl

end Cert.BlockScaled

end
-- ==== Proof.ProductArray.lean ====
/-
  The array the second launch leaves: the target's product of the activations and the weights the launch finds.

  The launch has 64 grid points, 4 column blocks (slow) by 16 row blocks (fast). Point t stages rows 512 (t % 16) … of the
  activations (all 4096 columns), columns 1024 (t / 16) … of the weights (all 4096 rows), and writes back the 512 x 1024
  tile of the output at that row block and column block. What the body stores at (p, q) is the sum over the inner coordinate
  k of the staged activation at (p, k) times the staged weight at (k, q): the product at (512 (t % 16) + p, 1024 (t / 16) + q).
  The 64 tiles cover the array, so the array ends equal to the product.
-/
import proofs.«132173_j91113436217701_1_alg».proof.Proof.Gen.KernelIdeal.Frame
import proofs.«132173_j91113436217701_1_alg».proof.Proof.MatmulBody
import proofs.«132173_j91113436217701_1_alg».proof.Proof.Target
import Idealize.ShloMosaic.Lib.Pipeline.Value

set_option maxRecDepth 16384

noncomputable section

open scoped BigOperators

namespace Cert.BlockScaled

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem no_offsets : (![0, 0] : Fin 2 → Nat) = fun _ => 0 := funext fun a => by fin_cases a <;> rfl

/-- One entry of one tile. If the staged activations' row `y 0` is the array's row `i 0` and the staged weights' column
    `y 1` is the array's column `i 1`, the stored value at `y` is the product at `i`. -/
theorem tile_entry (x : S8192x4096.Idx → EReal) (w : S4096x4096.Idx → EReal)
    (xb : Vec Ideal S512x4096 .f32) (wb : Vec Ideal S4096x1024 .bf16) (i : S8192x4096.Idx) (y : S512x1024.Idx)
    (hxb : ∀ (p : Fin 512) (k : Fin 4096), p.val = (y 0).val → xb (ix2 p k) = x (ix2 ⟨(i 0).val, idx2_lt0 i⟩ k))
    (hwb : ∀ (k : Fin 4096) (q : Fin 1024), q.val = (y 1).val → wb (ix2 k q) = w (ix2 k ⟨(i 1).val, idx2_lt1 i⟩)) :
    k1_pay1 xb wb y = product x w i := by
  obtain ⟨p, q, rfl⟩ : ∃ (p : Fin 512) (q : Fin 1024), y = ix2 p q := ⟨y 0, y 1, eq_ix2 y⟩
  rw [matmul_apply]
  unfold product
  refine Finset.sum_congr rfl fun k _ => ?_
  rw [hxb p k rfl, hwb k q rfl]

/-- The printed index maps over the 64 points: the activations' row block and the output's row block are t % 16, the
    weights' column block and the output's column block are t / 16, the other two block indices are 0. -/
theorem tile_maps : ∀ t : Fin cfg1.N, win1_0.index t (0 : Fin 2) = t.val % 16 ∧ win1_0.index t (1 : Fin 2) = 0
    ∧ win1_1.index t (0 : Fin 2) = 0 ∧ win1_1.index t (1 : Fin 2) = t.val / 16
    ∧ win1_2.index t (0 : Fin 2) = t.val % 16 ∧ win1_2.index t (1 : Fin 2) = t.val / 16 :=
  (by decide +kernel : ∀ t : Fin grid1.N, _)

/-- What point `t` writes back is tile `t` of the product of the activations and the weights the launch finds. -/
theorem tile_flushed (c : Dev nD) (t : Fin cfg1.N) :
    (dat1 V c).flushed 2 t = ((cfg1.win 2).blk t).view.read (Elt Ideal) (product (V c main_arg0) (V c main_v0)) := by
  show (cfg1.win 2).cut (grid1.coords t) ((dat1 V c).after 2 t) = _
  rw [after1_2]
  unfold out1_2
  rw [View.canon_unit_zero no_offsets]
  simp only [View.ld_unit_zero (S := S512x4096) no_offsets, View.ld_unit_zero (S := S4096x1024) no_offsets]
  obtain ⟨e0, e1, e2, e3, e4, e5⟩ := tile_maps t
  funext j
  refine tile_entry (V c main_arg0) (V c main_v0) (iblk1 V c 0 t) (iblk1 V c 1 t) (((cfg1.win 2).blk t).view.emb j) j ?_ ?_
  · intro p k hp
    show V c main_arg0 (((cfg1.win 0).blk t).view.emb (ix2 p k)) = V c main_arg0 _
    refine congrArg (V c main_arg0) (funext fun a => Fin.ext ?_)
    match a with
    | ⟨0, _⟩ => show win1_0.index t (0 : Fin 2) * 512 + 1 * p.val = win1_2.index t (0 : Fin 2) * 512 + 1 * (j 0).val; rw [e0, e4, hp]
    | ⟨1, _⟩ => show win1_0.index t (1 : Fin 2) * 4096 + 1 * k.val = k.val; rw [e1]; omega
  · intro k q hq
    show V c main_v0 (((cfg1.win 1).blk t).view.emb (ix2 k q)) = V c main_v0 _
    refine congrArg (V c main_v0) (funext fun a => Fin.ext ?_)
    match a with
    | ⟨0, _⟩ => show win1_1.index t (0 : Fin 2) * 4096 + 1 * k.val = k.val; rw [e2]; omega
    | ⟨1, _⟩ => show win1_1.index t (1 : Fin 2) * 1024 + 1 * q.val = win1_2.index t (1 : Fin 2) * 1024 + 1 * (j 1).val; rw [e3, e5, hq]

/-- An index of the array is in point `t`'s tile iff each coordinate is in the tile's range on its axis. -/
theorem mem_tile (t : Fin cfg1.N) (i : S8192x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v1).slice (win1_2.rect t)).set ↔ _
  rw [View.set_slice_whole, Rect.mem_set_unit]
  exact Iff.rfl

/-- The 64 tiles cover the array: entry (r, j) is in the tile of point 16 (j / 1024) + r / 512. -/
theorem tiles_cover (i : S8192x4096.Idx) :
    ∃ t : Fin cfg1.N, (cfg1.win 2).flush t = true ∧ i ∈ ((cfg1.win 2).blk t).view.set := by
  have h0 := idx2_lt0 i
  have h1 := idx2_lt1 i
  have hN : grid1.N = 64 := N_1
  obtain ⟨t, ht⟩ : ∃ t : Fin cfg1.N, t.val = (i 1).val / 1024 * 16 + (i 0).val / 512 :=
    ⟨⟨(i 1).val / 1024 * 16 + (i 0).val / 512, by show (i 1).val / 1024 * 16 + (i 0).val / 512 < grid1.N; rw [hN]; omega⟩, rfl⟩
  obtain ⟨e0, e1, e2, e3, e4, e5⟩ := tile_maps t
  refine ⟨t, flush1_2 t, ?_⟩
  rw [mem_tile]
  intro a
  match a with
  | ⟨0, _⟩ => show win1_2.index t (0 : Fin 2) * 512 ≤ (i 0).val ∧ (i 0).val < win1_2.index t (0 : Fin 2) * 512 + 512; rw [e4]; omega
  | ⟨1, _⟩ => show win1_2.index t (1 : Fin 2) * 1024 ≤ (i 1).val ∧ (i 1).val < win1_2.index t (1 : Fin 2) * 1024 + 1024; rw [e5]; omega

/-- The array the second launch leaves is the product of the activations and the weights it finds. -/
theorem product_array (c : Dev nD) :
    (dat1 V c).arrAt 2 cfg1.N = product (V c main_arg0) (V c main_v0) :=
  (dat1 V c).arrAt_eq_of_cover 2 (product (V c main_arg0) (V c main_v0)) (fun t _ => tile_flushed V c t) tiles_cover

end Cert.BlockScaled

end
-- ==== Proof.KernelValue.lean ====
/-
  The kernel program's result is the target function of its three arguments.

  The result buffer ends holding what the second launch leaves: the product of the activations it finds — the launch
  memory's, which the first launch does not write — with the weights it finds — the array the first launch leaves, which is
  the weight of the launch memory's signs and scales.
-/
import proofs.«132173_j91113436217701_1_alg».proof.Proof.KernelRun
import proofs.«132173_j91113436217701_1_alg».proof.Proof.WeightArray
import proofs.«132173_j91113436217701_1_alg».proof.Proof.ProductArray

noncomputable section

namespace Cert.BlockScaled

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The folded contents at the result's reference: the product of the launch memory's activations with the weight of its
    signs and scales. -/
theorem kernel_value (c : Dev nD) :
    W2 m ρ c (Proc.devRef .tc main_v1)
      = product (m ((c : Thread nD τ).loc main_arg0)) (weight (m ((c : Thread nD τ).loc main_arg1)) (m ((c : Thread nD τ).loc main_arg2))) := by
  rw [result_is_second, product_array, second_finds_x, second_finds_w, weight_array]

/-- The run with the result at the target function and the arguments as launched. -/
theorem kernel_run : θ_run defs (onTc (τ := τ) (main (F := Ideal))) ⟨m, fun _ => 0, ρ⟩ (fun r => ∀ c : Dev nD,
      r.2.mem ((c.tc : Thread nD τ).loc main_v1)
        = product (m ((c.tc : Thread nD τ).loc main_arg0)) (weight (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_value m ρ c), (h c).2⟩) (run_named m ρ)

end Cert.BlockScaled

end
-- ==== Proof.lean ====
/-
  The five claims about a matrix product with block-scaled sign weights.

  Both idealized programs compute, on the extended reals, the product of the activations with the weight whose entry
  (k, j) is the sign at (k, j) times the magnitude — the scale clipped below at zero plus a small constant — of the scale of
  the 64 x 64 block the entry lies in (Proof/Target.lean). The kernel program does it in two launches: the first writes the
  weight band by band (Proof/DequantBody.lean, Proof/WeightArray.lean), the second multiplies tile by tile, each tile
  contracting the whole inner axis at once (Proof/MatmulBody.lean, Proof/ProductArray.lean); Proof/KernelRun.lean names
  the result in the run and Proof/KernelValue.lean composes the two launches. The reference expands the scales by
  broadcasts and a reshape and contracts once (Proof/RefIsTarget.lean over the generated reading of its operations). The
  two results are the same sums of the same products, so no law of the extended reals and no finiteness of the inputs is
  used. The three frames are the generated ones (the reference's is its run with the result dropped); the idealization
  rewrote nothing, so `preserves` is trivial.
-/
import proofs.«132173_j91113436217701_1_alg».proof.Defs
import proofs.«132173_j91113436217701_1_alg».proof.Proof.Gen.Kernel
import proofs.«132173_j91113436217701_1_alg».proof.Proof.Gen.Kernel.Frame
import proofs.«132173_j91113436217701_1_alg».proof.Proof.Gen.KernelIdeal
import proofs.«132173_j91113436217701_1_alg».proof.Proof.Gen.KernelIdeal.Frame
import proofs.«132173_j91113436217701_1_alg».proof.Proof.Gen.ReferenceIdeal
import proofs.«132173_j91113436217701_1_alg».proof.Proof.Gen.ReferenceIdeal.Read
import proofs.«132173_j91113436217701_1_alg».proof.Proof.Gen.Pre_finite_inputs
import proofs.«132173_j91113436217701_1_alg».proof.Proof.RefIsTarget
import proofs.«132173_j91113436217701_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the target function of those arguments. -/
theorem algebraic : Cert.algebraic_KernelIdeal_ReferenceIdeal := by
  intro m ρ m' ρ' _ hagree
  refine ⟨fun c => Cert.BlockScaled.product (m ((c.tc : Thread Cert.KernelIdeal.nD Cert.KernelIdeal.τ).loc Cert.KernelIdeal.main_arg0))
      (Cert.BlockScaled.weight (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.BlockScaled.kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v7_eq, Cert.BlockScaled.ref_is_target, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
